-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S16384x4096 : Shape := ⟨2, ![16384, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 44
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .bf16⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S16384x4096, .f32⟩
  | .hbm, ⟨41, _⟩ => ⟨S1x4096, .f32⟩
  | .hbm, ⟨42, _⟩ => ⟨S16384x4096, .f32⟩
  | .hbm, ⟨43, _⟩ => ⟨S8x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v10 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_6 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  bcast_S_S4096 : S_.BroadcastsInDim S4096 (![] : Fin 0 → Fin S4096.rank)
  shapeCasts_S8x2048x4096_S16384x4096 : S8x2048x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v19) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S8x2048x4096, .f32⟩
  | .hbm, ⟨40, _⟩ => ⟨S1x1x4096, .f32⟩
  | .hbm, ⟨41, _⟩ => ⟨S8x2048x4096, .f32⟩
  | .hbm, ⟨42, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_cst_4 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v9 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_6 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Cases.lean ====
/-
  What the body leaves after one grid point, case by case, as values.

  The grid is (row block, column block, contraction block); the contraction block moves fastest. At the first
  contraction block the body resets the accumulator to zero and then adds the block's partial product; at the middle
  ones it adds the partial product to what the point before left; at the last it adds the partial product and then
  writes accumulator + bias row into the output block.
-/
import proofs.«123997_j51900384805156_2_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl

/-- One accumulation step: the accumulator `acc` plus the product of the row block `x` with the (transposed) weight
    block `w`. -/
abbrev step (x : Vec F S1024x1024 .f32) (w : Vec F S1024x1024 .bf16) (acc : Vec F S1024x1024 .f32) : Vec F S1024x1024 .f32 :=
  k0_pay2 x w acc

/-- A middle contraction block: the accumulator holding `acc` ends at `acc` plus this block's partial product. -/
theorem scratch_B (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 : Vec F S1024x1024 .f32) (x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = step x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S1024x1024) hz]

/-- The last contraction block: the accumulator again ends at `acc` plus this block's partial product, -/
theorem scratch_C (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x1024 .f32) (x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = step x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread, View.ld_unit_zero (S := S1024x1024) hz, View.ld_unit_zero (S := S1x1024) hz]

/-- and the output block is that sum plus the bias row, broadcast down the rows. -/
theorem out_C (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x1024 .f32) (x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (step x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread, View.ld_unit_zero (S := S1024x1024) hz, View.ld_unit_zero (S := S1x1024) hz]

/-- The first contraction block: the accumulator is reset to the zero block, read back, and ends at zero plus this
    block's partial product. -/
theorem scratch_A (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 : Vec F S1024x1024 .f32) (x1 : Vec F S1024x1024 .bf16) (x2 : Vec F S1x1024 .f32) :
    sout0_A_0 c i a3 h3 a4 h4 a5 h5 a6 h6 a7 h7 hc0 hc1 x0 x1 x2 = step x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h7.read_unread, View.ld_unit_zero (S := S1024x1024) hz, View.ld_unit_zero (S := S1x1024) hz]

end Cert.KernelIdeal.Acc

end
-- ==== Proof.Fold.lean ====
/-
  What the output's staging buffer holds when an output block is written back.

  The four grid points of one output block run one after the other (the contraction block moves fastest): the
  accumulator is reset and takes the first partial product, takes the second and the third, and at the fourth the
  output block is the accumulated sum plus the bias row.
-/
import proofs.«123997_j51900384805156_2_alg».proof.Proof.Cases

noncomputable section

namespace Cert.KernelIdeal.Acc

open Idealize.ShloMosaic Idealize.ShloMosaic.TcCoe Idealize.SL.Sem
open Idealize.ShloMosaic.Pipeline (Dat)
open Cert.KernelIdeal Cert.KernelIdeal.Gen

variable {F : FTy → Type} [FloatOps F]

/-! ## Point by point -/

variable (m : (ℓ : Loc nD τ sig) → Buf (Elt F) ℓ)

/-- What the accumulator holds after point `n`. -/
abbrev accAfter (c : Dev nD) (n : ℕ) (h : n < cfg0.N) : Vec F S1024x1024 .f32 := (outsAt0 m c n h).2

/-- The point-indexed contents depend on the point's number only. -/
theorem outsAt0_congr (c : Dev nD) (u v : ℕ) (hu : u < cfg0.N) (hv : v < cfg0.N) (e : u = v) :
    outsAt0 m c u hu = outsAt0 m c v hv := by
  subst e; rfl

set_option maxHeartbeats 60000 in
/-- After a point of the first contraction block: zero plus that point's partial product. -/
theorem acc_first (c : Dev nD) (t : Fin cfg0.N) (h0 : t.val % 4 = 0) :
    accAfter m c t.val t.isLt = step (iblk m c 0 t) (iblk m c 1 t) (k0_pay1 (F := F)) := by
  have h1 : ¬t.val % 4 = 3 := by omega
  have e1 : (outsAt0 m c t.val t.isLt).2
      = sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t) := by
    rw [outsAt0_A m c t h0 h1]
  have e2 : sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)
      = step (iblk m c 0 t) (iblk m c 1 t) (k0_pay1 (F := F)) :=
    scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)
  exact e1.trans e2

set_option maxHeartbeats 60000 in
/-- After a point `t` of a middle contraction block: what the point before (`s`) left plus this point's partial
    product. -/
theorem acc_mid (c : Dev nD) (t s : Fin cfg0.N) (e : t.val - 1 = s.val) (h0 : ¬t.val % 4 = 0) (h1 : ¬t.val % 4 = 3) :
    accAfter m c t.val t.isLt = step (iblk m c 0 t) (iblk m c 1 t) (accAfter m c s.val s.isLt) := by
  have e1 : (outsAt0 m c t.val t.isLt).2
      = sout0_B_0 c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) (fun hh => h1 ((hcond0_1 t).mp hh)) (iblk m c 0 t) (iblk m c 1 t) (iblk m c 2 t) (outsAt0 m c (t.val - 1) (Nat.lt_of_le_of_lt (Nat.sub_le _ _) t.isLt)).2 := by
    rw [outsAt0_B m c t h0 h1]
  have e2 := scratch_B c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) (fun hh => h1 ((hcond0_1 t).mp hh)) (iblk m c 0 t) (iblk m c 1 t) (iblk m c 2 t) (outsAt0 m c (t.val - 1) (Nat.lt_of_le_of_lt (Nat.sub_le _ _) t.isLt)).2
  have e3 : outsAt0 m c (t.val - 1) (Nat.lt_of_le_of_lt (Nat.sub_le _ _) t.isLt) = outsAt0 m c s.val s.isLt := outsAt0_congr m c _ _ _ _ e
  rw [e3] at e1 e2
  exact e1.trans e2

set_option maxHeartbeats 60000 in
/-- After a point `t` of the last contraction block the output's staging buffer holds what the point before (`s`)
    left, plus this point's partial product, plus the bias row. -/
theorem out_last (c : Dev nD) (t s : Fin cfg0.N) (e : t.val - 1 = s.val) (h0 : ¬t.val % 4 = 0) (h1 : t.val % 4 = 3) :
    (outsAt0 m c t.val t.isLt).1
      = k0_pay3 (step (iblk m c 0 t) (iblk m c 1 t) (accAfter m c s.val s.isLt)) (iblk m c 2 t) := by
  have e1 : (outsAt0 m c t.val t.isLt).1
      = out0_C_3 c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2 := by
    rw [outsAt0_C m c t h0 h1]
  have e2 := out_C c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2
  have e3 : outsAt0 m c (t.val - 1) (Nat.lt_of_le_of_lt (Nat.sub_le _ _) t.isLt) = outsAt0 m c s.val s.isLt := outsAt0_congr m c _ _ _ _ e
  rw [e3] at e1 e2
  exact e1.trans e2

set_option maxHeartbeats 60000 in
/-- THE FOUR POINTS OF ONE OUTPUT BLOCK. Four consecutive points `t0, t1, t2, t3`, the first at a multiple of four,
    share the output block; after the last the staging buffer holds the four partial products added in order into
    zero, plus the bias row. -/
theorem out_group (c : Dev nD) (t0 t1 t2 t3 : Fin cfg0.N) (h0 : t0.val % 4 = 0)
    (e1 : t1.val - 1 = t0.val) (m1 : t1.val % 4 = 1) (e2 : t2.val - 1 = t1.val) (m2 : t2.val % 4 = 2)
    (e3 : t3.val - 1 = t2.val) (m3 : t3.val % 4 = 3) :
    (outsAt0 m c t3.val t3.isLt).1
      = k0_pay3
          (step (iblk m c 0 t3) (iblk m c 1 t3)
            (step (iblk m c 0 t2) (iblk m c 1 t2)
              (step (iblk m c 0 t1) (iblk m c 1 t1)
                (step (iblk m c 0 t0) (iblk m c 1 t0) (k0_pay1 (F := F))))))
          (iblk m c 2 t3) := by
  have a0 := acc_first m c t0 h0
  have a1 := acc_mid m c t1 t0 e1 (by omega) (by omega)
  have a2 := acc_mid m c t2 t1 e2 (by omega) (by omega)
  have a3 := out_last m c t3 t2 e3 (by omega) m3
  rw [a0] at a1
  rw [a1] at a2
  rw [a2] at a3
  exact a3

end Cert.KernelIdeal.Acc

end
-- ==== Proof.Payload.lean ====
/-
  The body's three stored values, read at an index over the extended reals.

  * the reset value is the zero block;
  * an accumulation step at (p, q) adds to the accumulator the dot product of row `p` of the row block with row `q` of
    the weight block (the contraction runs over the second axis of both: the weight block is used transposed); rounding
    the row block to the narrower float format changes nothing over the extended reals, and the product accumulates
    into a zero splat;
  * the final value at (p, q) adds entry `q` of the bias row, broadcast down the rows.
-/
import proofs.«123997_j51900384805156_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx
open Cert.KernelIdeal Cert.KernelIdeal.Gen

/-- The reset value is zero everywhere. -/
theorem reset_apply (j : S1024x1024.Idx) : k0_pay1 (F := Ideal) j = 0 := by
  unfold k0_pay1
  rw [shapeCast_self]
  exact Ideal.ofBits_zero_f32

/-- The record of the body's matrix product: both operands contract their second axis. -/
abbrev D := dot_S1024x1024_S1024x1024_S1024x1024_1_1_0_0_n_n

/-- The left operand is read at (row of the output index, contraction position), -/
theorem lhs_row (i : S1024x1024.Idx) (k : D.contr.Idx) : (D.lhsIdx i k 0).val = (i 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs_contr (i : S1024x1024.Idx) (k : D.contr.Idx) : (D.lhsIdx i k 1).val = (k ⟨0, by decide⟩).val :=
  D.lhsIdx_val_of_single rfl i k
/-- the right operand at (column of the output index, contraction position): it is used transposed. -/
theorem rhs_row (i : S1024x1024.Idx) (k : D.contr.Idx) : (D.rhsIdx i k 0).val = (i 1).val := by
  unfold DotDims.rhsIdx
  rw [dif_neg (show ¬(0 : Fin S1024x1024.rank) ∈ D.rhsBatch by decide), dif_pos (show (0 : Fin S1024x1024.rank) ∈ D.rhsNonContracting by decide)]
  rfl
theorem rhs_contr (i : S1024x1024.Idx) (k : D.contr.Idx) : (D.rhsIdx i k 1).val = (k ⟨0, by decide⟩).val :=
  D.rhsIdx_val_of_single rfl i k

/-- The product of a row block with a transposed weight block, into the zero splat, at (p, q): the dot product of
    row `p` with row `q`. -/
theorem matmul_apply (x : FVec Ideal S1024x1024 .bf16) (w : FVec Ideal S1024x1024 .bf16) (p q : Fin 1024) :
    matmul D none x w (constant S1024x1024 .f32 0x00000000#32) (ix2 p q) = ∑ κ : Fin 1024, x (ix2 p κ) * w (ix2 q κ) := by
  simp only [matmul]
  rw [Ideal.matmul_constant_zero_apply, ← Equiv.sum_comp (contrEquiv1 D 1024 rfl rfl).symm]
  refine Finset.sum_congr rfl fun κ _ => ?_
  have hk := contrEquiv1_symm_val D 1024 rfl rfl κ
  have el : D.lhsIdx (ix2 p q) ((contrEquiv1 D 1024 rfl rfl).symm κ) = ix2 p κ := funext fun a => Fin.ext (by
    match a with
    | ⟨0, _⟩ => exact lhs_row _ _
    | ⟨1, _⟩ => exact (lhs_contr _ _).trans hk)
  have er : D.rhsIdx (ix2 p q) ((contrEquiv1 D 1024 rfl rfl).symm κ) = ix2 q κ := funext fun a => Fin.ext (by
    match a with
    | ⟨0, _⟩ => exact rhs_row _ _
    | ⟨1, _⟩ => exact (rhs_contr _ _).trans hk)
  rw [el, er]

/-- An accumulation step at (p, q). -/
theorem step_apply (x : Vec Ideal S1024x1024 .f32) (w : Vec Ideal S1024x1024 .bf16) (acc : Vec Ideal S1024x1024 .f32)
    (p q : Fin 1024) :
    k0_pay2 (F := Ideal) x w acc (ix2 p q) = acc (ix2 p q) + ∑ κ : Fin 1024, x (ix2 p κ) * w (ix2 q κ) := by
  unfold k0_pay2
  rw [shapeCast_self, shapeCast_self, shapeCast_self]
  refine (addf_apply _ _ _).trans ?_
  refine congrArg (acc (ix2 p q) + ·) ?_
  exact matmul_apply (truncf .bf16 x bitsLt_bf16_f32) w p q

/-- The final value at (p, q): the accumulator there plus entry `q` of the bias row. -/
theorem final_apply (v : Vec Ideal S1024x1024 .f32) (b : Vec Ideal S1x1024 .f32) (p q : Fin 1024) :
    k0_pay3 (F := Ideal) v b (ix2 p q) = v (ix2 p q) + b (ix2 0 q) := by
  unfold k0_pay3
  rw [shapeCast_self]
  refine (addf_apply _ _ _).trans ?_
  refine congrArg (v (ix2 p q) + ·) ?_
  exact (broadcastTo_apply b broadcasts_S1x1024_S1024x1024 (ix2 p q) (ix2 0 q) (fun a => by
    match a with
    | ⟨0, _⟩ => rfl
    | ⟨1, _⟩ => rfl))

/-- FOUR STEPS FROM THE RESET, THEN THE FINAL VALUE, at (p, q): the four dot products added in order into zero, plus
    the bias entry. -/
theorem group_apply (x0 x1 x2 x3 : Vec Ideal S1024x1024 .f32) (w0 w1 w2 w3 : Vec Ideal S1024x1024 .bf16)
    (b : Vec Ideal S1x1024 .f32) (p q : Fin 1024) :
    k0_pay3 (F := Ideal) (k0_pay2 x3 w3 (k0_pay2 x2 w2 (k0_pay2 x1 w1 (k0_pay2 x0 w0 (k0_pay1 (F := Ideal)))))) b (ix2 p q)
      = ((((0 + ∑ κ : Fin 1024, x0 (ix2 p κ) * w0 (ix2 q κ)) + ∑ κ : Fin 1024, x1 (ix2 p κ) * w1 (ix2 q κ))
            + ∑ κ : Fin 1024, x2 (ix2 p κ) * w2 (ix2 q κ)) + ∑ κ : Fin 1024, x3 (ix2 p κ) * w3 (ix2 q κ))
          + b (ix2 0 q) := by
  rw [final_apply, step_apply, step_apply, step_apply, step_apply, reset_apply]

end Cert.KernelIdeal.Pay

end
-- ==== Proof.Quant.lean ====
/-
  The quantizer both programs apply, on the host, to the weight matrix and to the bias vector before anything else:
  clip to [-1, 1], scale the magnitude by 255, round to the nearest integer (ties to even), divide by 255, and restore
  the sign. It is the same chain of host operations on both sides, so it is carried as ONE function of the array and
  never opened.
-/
import Idealize.ShloMosaic.PureOps

noncomputable section

namespace Cert.Quant

open Idealize.ShloMosaic

variable {F : FTy → Type} [FloatOps F]

/-- The scalar shape. -/
abbrev S0 : Shape := ⟨0, ![]⟩

/-- The array clipped to [-1, 1]. -/
def clip (s : Shape) (hb : S0.BroadcastsInDim s (![] : Fin 0 → Fin s.rank)) (w : FVec F s .f32) : FVec F s .f32 :=
  minimumf (broadcastInDim s ![] hb (id (constant (F := F) S0 .f32 0x3F800000#32)))
    (maximumf (broadcastInDim s ![] hb (id (constant (F := F) S0 .f32 0xBF800000#32))) w)

/-- The quantized array: round(|clip w| · 255) / 255 · sign(clip w). -/
def quant (s : Shape) (hb : S0.BroadcastsInDim s (![] : Fin 0 → Fin s.rank)) (w : FVec F s .f32) : FVec F s .f32 :=
  mulf
    (Host.divf
      (Host.roundeven (mulf (Host.absf (clip s hb w)) (broadcastInDim s ![] hb (constant (F := F) S0 .f32 0x437F0000#32))))
      (broadcastInDim s ![] hb (constant (F := F) S0 .f32 0x437F0000#32)))
    (Host.sign (clip s hb w))

end Cert.Quant

end
-- ==== Proof.Blocks.lean ====
/-
  Where each window's block sits in its array, and what the arrays hold when the region is entered.

  Grid point `t` of the 16 × 4 × 4 grid is (row block, column block, contraction block) = (t / 16, t / 4 mod 4,
  t mod 4): the contraction block moves fastest. The row-block window reads rows 1024·(t/16)… and contraction
  positions 1024·(t mod 4)…; the weight window reads rows 1024·(t/4 mod 4)… (output columns) and the same contraction
  positions; the bias window reads columns 1024·(t/4 mod 4)… of its one row; the output window writes rows
  1024·(t/16)… and columns 1024·(t/4 mod 4)….

  At the region's entry the first array is the input reshaped from [8, 2048, 4096] to [16384, 4096], the second the
  quantized weight (narrowed in format, which changes nothing over the extended reals), the third the quantized bias
  as one row.
-/
import proofs.«123997_j51900384805156_2_alg».proof.Proof.Gen.KernelIdeal.Frame
import proofs.«123997_j51900384805156_2_alg».proof.Proof.Quant
import Idealize.ShloMosaic.Lib.ValueIdx
import Idealize.ShloMosaic.Lib.Pipeline.Value
import Idealize.ShloMosaic.Lib.StableHlo.Run

noncomputable section

namespace Cert.KernelIdeal.Blocks

open Idealize.ShloMosaic Idealize.ShloMosaic.TcCoe Idealize.SL.Sem Idealize.ShloMosaic.ValueIdx
open Idealize.ShloMosaic.StableHlo
open Cert.KernelIdeal Cert.KernelIdeal.Gen

variable {F : FTy → Type} [FloatOps F]
variable (m : (ℓ : Loc nD τ sig) → Buf (Elt F) ℓ)

/-- The printed index maps, decided once over the grid's 256 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Entry (p, κ) of the row block at point `t` is entry (r, k) of the reshaped input. -/
theorem emb_x (t : Fin cfg0.N) (p κ : Fin 1024) (r : Fin 16384) (k : Fin 4096)
    (hr : r.val = 1024 * (t.val / 16) + p.val) (hk : k.val = 1024 * (t.val % 4) + κ.val) :
    ((cfg0.win 0).blk t).view.emb (ix2 p κ) = ix2 r k := by
  obtain ⟨e0, e1, -⟩ := idx_facts t
  funext a; apply Fin.ext
  match a with
  | ⟨0, _⟩ => show win0_0.index t (0 : Fin 2) * 1024 + 1 * p.val = r.val; rw [e0]; omega
  | ⟨1, _⟩ => show win0_0.index t (1 : Fin 2) * 1024 + 1 * κ.val = k.val; rw [e1]; omega

/-- Entry (q, κ) of the weight block at point `t` is entry (o, k) of the weight. -/
theorem emb_w (t : Fin cfg0.N) (q κ : Fin 1024) (o : Fin 4096) (k : Fin 4096)
    (ho : o.val = 1024 * (t.val / 4 % 4) + q.val) (hk : k.val = 1024 * (t.val % 4) + κ.val) :
    ((cfg0.win 1).blk t).view.emb (ix2 q κ) = ix2 o k := by
  obtain ⟨-, -, e0, e1, -⟩ := idx_facts t
  funext a; apply Fin.ext
  match a with
  | ⟨0, _⟩ => show win0_1.index t (0 : Fin 2) * 1024 + 1 * q.val = o.val; rw [e0]; omega
  | ⟨1, _⟩ => show win0_1.index t (1 : Fin 2) * 1024 + 1 * κ.val = k.val; rw [e1]; omega

/-- Entry (0, q) of the bias block at point `t` is entry (0, o) of the bias row. -/
theorem emb_b (t : Fin cfg0.N) (q : Fin 1024) (o : Fin 4096) (ho : o.val = 1024 * (t.val / 4 % 4) + q.val) :
    ((cfg0.win 2).blk t).view.emb (ix2 0 q) = ix2 0 o := by
  obtain ⟨-, -, -, -, e0, e1, -⟩ := idx_facts t
  funext a; apply Fin.ext
  match a with
  | ⟨0, _⟩ => show win0_2.index t (0 : Fin 2) * 1 + 1 * 0 = 0; rw [e0]
  | ⟨1, _⟩ => show win0_2.index t (1 : Fin 2) * 1024 + 1 * q.val = o.val; rw [e1]; omega

/-- Entry (p, q) of the output block at point `t` is entry (r, o) of the output. -/
theorem emb_o (t : Fin cfg0.N) (p q : Fin 1024) (r : Fin 16384) (o : Fin 4096)
    (hr : r.val = 1024 * (t.val / 16) + p.val) (ho : o.val = 1024 * (t.val / 4 % 4) + q.val) :
    ((cfg0.win 3).blk t).view.emb (ix2 p q) = ix2 r o := by
  obtain ⟨-, -, -, -, -, -, e0, e1⟩ := idx_facts t
  funext a; apply Fin.ext
  match a with
  | ⟨0, _⟩ => show win0_3.index t (0 : Fin 2) * 1024 + 1 * p.val = r.val; rw [e0]; omega
  | ⟨1, _⟩ => show win0_3.index t (1 : Fin 2) * 1024 + 1 * q.val = o.val; rw [e1]; omega

/-- The three input blocks read at an entry, through the arrays as the region finds them. -/
theorem iblk_x (c : Dev nD) (t : Fin cfg0.N) (p κ : Fin 1024) (r : Fin 16384) (k : Fin 4096)
    (hr : r.val = 1024 * (t.val / 16) + p.val) (hk : k.val = 1024 * (t.val % 4) + κ.val) :
    iblk m c 0 t (ix2 p κ) = V m c main_v19 (ix2 r k) := by
  show V m c main_v19 (((cfg0.win 0).blk t).view.emb (ix2 p κ)) = _
  rw [emb_x t p κ r k hr hk]

theorem iblk_w (c : Dev nD) (t : Fin cfg0.N) (q κ : Fin 1024) (o : Fin 4096) (k : Fin 4096)
    (ho : o.val = 1024 * (t.val / 4 % 4) + q.val) (hk : k.val = 1024 * (t.val % 4) + κ.val) :
    iblk m c 1 t (ix2 q κ) = V m c main_v9 (ix2 o k) := by
  show V m c main_v9 (((cfg0.win 1).blk t).view.emb (ix2 q κ)) = _
  rw [emb_w t q κ o k ho hk]

theorem iblk_b (c : Dev nD) (t : Fin cfg0.N) (q : Fin 1024) (o : Fin 4096) (ho : o.val = 1024 * (t.val / 4 % 4) + q.val) :
    iblk m c 2 t (ix2 0 q) = V m c main_v20 (ix2 0 o) := by
  show V m c main_v20 (((cfg0.win 2).blk t).view.emb (ix2 0 q)) = _
  rw [emb_b t q o ho]

/-! ## The arrays at the region's entry -/

/-- The first array: the input, reshaped. -/
theorem V_x (c : Dev nD) : (V m c main_v19 : S16384x4096.Idx → Elt F .f32)
    = shapeCast S16384x4096 (m ((c : Thread nD τ).loc main_arg0)) shapeCasts_S8x2048x4096_S16384x4096 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The second array: the quantized weight (its format narrowed). -/
theorem V_w (c : Dev nD) : (V m c main_v9 : S4096x4096.Idx → Elt F .bf16)
    = truncf .bf16 (Cert.Quant.quant S4096x4096 bcast_S_S4096x4096 (m ((c : Thread nD τ).loc main_arg1))) bitsLt_bf16_f32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The third array: the quantized bias, as one row. -/
theorem V_b (c : Dev nD) : (V m c main_v20 : S1x4096.Idx → Elt F .f32)
    = shapeCast S1x4096 (Cert.Quant.quant S4096 bcast_S_S4096 (m ((c : Thread nD τ).loc main_arg2))) shapeCasts_S4096_S1x4096 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

end Cert.KernelIdeal.Blocks

end
-- ==== Proof.BlockSum.lean ====
/-
  A sum over an index range cut into equal consecutive blocks is the sum, over the blocks, of each block's sum.
  With four blocks it is what adding the four block sums, one after the other, into a zero leaves: addition of
  extended reals is commutative and associative (an additive commutative monoid), so no finiteness is needed.
-/
import Mathlib.Algebra.BigOperators.Fin
import Mathlib.Logic.Equiv.Fin.Basic
import Mathlib.Data.Fintype.BigOperators

namespace Cert.BlockSum

/-- Position `j` of block `i`, among `a` consecutive blocks of length `n`: the index `n * i + j`. -/
abbrev pos {a n : ℕ} (i : Fin a) (j : Fin n) : Fin (a * n) := finProdFinEquiv (i, j)

theorem pos_val {a n : ℕ} (i : Fin a) (j : Fin n) : (pos i j).val = j.val + n * i.val := rfl

/-- The whole sum is the sum over the blocks of the block sums. -/
theorem sum_blocks {M : Type*} [AddCommMonoid M] (a n : ℕ) (f : Fin (a * n) → M) :
    ∑ k, f k = ∑ i : Fin a, ∑ j : Fin n, f (pos i j) := by
  rw [← Equiv.sum_comp finProdFinEquiv f, Fintype.sum_prod_type]

/-- Four blocks, accumulated in order from zero. -/
theorem sum_four_blocks {M : Type*} [AddCommMonoid M] (n : ℕ) (f : Fin (4 * n) → M) :
    ∑ k, f k = (((0 + ∑ j : Fin n, f (pos 0 j)) + ∑ j : Fin n, f (pos 1 j)) + ∑ j : Fin n, f (pos 2 j))
      + ∑ j : Fin n, f (pos 3 j) := by
  rw [sum_blocks, Fin.sum_univ_four, zero_add]

/-- Position `κ` of the `j`-th block of 1024 among the 4096 contraction positions. -/
abbrev kpos (j : Fin 4) (κ : Fin 1024) : Fin 4096 := ⟨1024 * j.val + κ.val, by have := j.isLt; have := κ.isLt; omega⟩

/-- A sum over the 4096 contraction positions is the four sums over the blocks of 1024, added in order into zero. -/
theorem sum_4096 {M : Type*} [AddCommMonoid M] (f : Fin 4096 → M) :
    ∑ k, f k = (((0 + ∑ κ : Fin 1024, f (kpos 0 κ)) + ∑ κ : Fin 1024, f (kpos 1 κ)) + ∑ κ : Fin 1024, f (kpos 2 κ))
      + ∑ κ : Fin 1024, f (kpos 3 κ) := by
  have e : ∀ (j : Fin 4) (κ : Fin 1024), (pos j κ : Fin (4 * 1024)) = kpos j κ := fun j κ =>
    Fin.ext (by show κ.val + 1024 * j.val = 1024 * j.val + κ.val; omega)
  have h := sum_four_blocks 1024 (fun k : Fin (4 * 1024) => f k)
  simp only [e] at h
  exact h

end Cert.BlockSum
-- ==== Proof.Result.lean ====
/-
  The kernel's [16384, 4096] result array, as one function of the three arrays the region finds.

  Entry (r, o) is the dot product, over all 4096 contraction positions, of row `r` of the reshaped input with row `o`
  of the quantized weight, plus entry `o` of the bias row. The kernel computes the dot product as four partial sums
  over blocks of 1024 positions, added in order into a zero accumulator; addition of extended reals is commutative
  and associative, so the four partial sums in that order are the whole sum. Each output block is written back once,
  at the last of its four grid points, and the sixty-four output blocks tile the array.
-/
import proofs.«123997_j51900384805156_2_alg».proof.Proof.Fold
import proofs.«123997_j51900384805156_2_alg».proof.Proof.Payload
import proofs.«123997_j51900384805156_2_alg».proof.Proof.Blocks
import proofs.«123997_j51900384805156_2_alg».proof.Proof.BlockSum
import Idealize.ShloMosaic.Lib.StableHlo.Run

noncomputable section

namespace Cert.KernelIdeal.Result

open Idealize.ShloMosaic Idealize.ShloMosaic.TcCoe Idealize.SL.Sem Idealize.ShloMosaic.ValueIdx
open Idealize.ShloMosaic.Pipeline (Dat)
open Idealize.ShloMosaic.StableHlo
open Cert.KernelIdeal Cert.KernelIdeal.Gen Cert.BlockSum

variable (m : (ℓ : Loc nD τ sig) → Buf (Elt Ideal) ℓ) (ρ : Dev nD → PrngReg)

/-- Entry (r, o) of the product-plus-bias. -/
def entry (X : S16384x4096.Idx → EReal) (W : S4096x4096.Idx → EReal) (B : S1x4096.Idx → EReal)
    (r : Fin 16384) (o : Fin 4096) : EReal :=
  (∑ k : Fin 4096, X (ix2 r k) * W (ix2 o k)) + B (ix2 0 o)

/-- The whole [16384, 4096] array. -/
def G2 (X : S16384x4096.Idx → EReal) (W : S4096x4096.Idx → EReal) (B : S1x4096.Idx → EReal) :
    S16384x4096.Idx → EReal :=
  fun i => entry X W B ⟨(i 0).val, (i 0).isLt⟩ ⟨(i 1).val, (i 1).isLt⟩

theorem G2_apply (X : S16384x4096.Idx → EReal) (W : S4096x4096.Idx → EReal) (B : S1x4096.Idx → EReal)
    (r : Fin 16384) (o : Fin 4096) : G2 X W B (ix2 r o) = entry X W B r o := rfl

/-- The partial dot product a grid point adds, in terms of the arrays: when entry (p, κ) of the row block is entry
    (r, 1024·j + κ) of the first array and entry (q, κ) of the weight block is entry (o, 1024·j + κ) of the second, the
    block's dot product is contraction block `j` of row `r` against row `o`. -/
theorem partial_eq (x : Vec Ideal S1024x1024 .f32) (w : Vec Ideal S1024x1024 .bf16)
    (X : S16384x4096.Idx → EReal) (W : S4096x4096.Idx → EReal) (p q : Fin 1024) (r : Fin 16384) (o : Fin 4096) (j : Fin 4)
    (hx : ∀ κ : Fin 1024, x (ix2 p κ) = X (ix2 r (kpos j κ))) (hw : ∀ κ : Fin 1024, w (ix2 q κ) = W (ix2 o (kpos j κ))) :
    ∑ κ : Fin 1024, x (ix2 p κ) * w (ix2 q κ) = ∑ κ : Fin 1024, X (ix2 r (kpos j κ)) * W (ix2 o (kpos j κ)) :=
  Finset.sum_congr rfl fun κ _ => by rw [hx, hw]

set_option maxHeartbeats 400000 in
/-- WHAT A WRITE-BACK WRITES: at the last of an output block's four points, the block of `G2` of the arrays. -/
theorem flushed_eq (c : Dev nD) (t : Fin cfg0.N) (hf : (cfg0.win 3).flush t = true) :
    (dats m 0 c).flushed 3 t
      = ((cfg0.win 3).blk t).view.read (Elt Ideal) (G2 (V m c main_v19) (V m c main_v9) (V m c main_v20)) := by
  have hN : cfg0.N = 256 := N_0
  have h3 : t.val % 4 = 3 := (flush0_3 t).mp hf
  have hlt : t.val < cfg0.N := t.isLt
  show (cfg0.win 3).cut (grid0.coords t) ((dats m 0 c).after 3 t) = _
  rw [after0_3]
  rw [Acc.out_group m c ⟨t.val - 3, by omega⟩ ⟨t.val - 2, by omega⟩ ⟨t.val - 1, by omega⟩ t
    (by show (t.val - 3) % 4 = 0; omega) (by show t.val - 2 - 1 = t.val - 3; omega) (by show (t.val - 2) % 4 = 1; omega)
    (by show t.val - 1 - 1 = t.val - 2; omega) (by show (t.val - 1) % 4 = 2; omega) (by show t.val - 1 = t.val - 1; rfl) h3]
  funext y
  obtain ⟨p, q, rfl⟩ : ∃ (p q : Fin 1024), y = ix2 p q := ⟨y 0, y 1, eq_ix2 y⟩
  have hp := p.isLt
  have hq := q.isLt
  refine (Pay.group_apply (iblk m c 0 ⟨t.val - 3, by omega⟩) (iblk m c 0 ⟨t.val - 2, by omega⟩) (iblk m c 0 ⟨t.val - 1, by omega⟩) (iblk m c 0 t)
    (iblk m c 1 ⟨t.val - 3, by omega⟩) (iblk m c 1 ⟨t.val - 2, by omega⟩) (iblk m c 1 ⟨t.val - 1, by omega⟩) (iblk m c 1 t)
    (iblk m c 2 t) p q).trans ?_
  have hr : ∀ s : ℕ, s ≤ 3 → 1024 * (t.val / 16) + p.val = 1024 * ((t.val - s) / 16) + p.val := fun s hs => by omega
  have ho : ∀ s : ℕ, s ≤ 3 → 1024 * (t.val / 4 % 4) + q.val = 1024 * ((t.val - s) / 4 % 4) + q.val := fun s hs => by omega
  rw [partial_eq (iblk m c 0 ⟨t.val - 3, by omega⟩) (iblk m c 1 ⟨t.val - 3, by omega⟩) (V m c main_v19) (V m c main_v9) p q ⟨1024 * (t.val / 16) + p.val, by omega⟩ ⟨1024 * (t.val / 4 % 4) + q.val, by omega⟩ 0
      (fun κ => Blocks.iblk_x m c ⟨t.val - 3, by omega⟩ p κ ⟨1024 * (t.val / 16) + p.val, by omega⟩ (kpos 0 κ) (hr 3 (by omega)) (by show 1024 * (0 : Fin 4).val + κ.val = 1024 * ((t.val - 3) % 4) + κ.val; have : (0 : Fin 4).val = 0 := rfl; omega))
      (fun κ => Blocks.iblk_w m c ⟨t.val - 3, by omega⟩ q κ ⟨1024 * (t.val / 4 % 4) + q.val, by omega⟩ (kpos 0 κ) (ho 3 (by omega)) (by show 1024 * (0 : Fin 4).val + κ.val = 1024 * ((t.val - 3) % 4) + κ.val; have : (0 : Fin 4).val = 0 := rfl; omega)),
    partial_eq (iblk m c 0 ⟨t.val - 2, by omega⟩) (iblk m c 1 ⟨t.val - 2, by omega⟩) (V m c main_v19) (V m c main_v9) p q ⟨1024 * (t.val / 16) + p.val, by omega⟩ ⟨1024 * (t.val / 4 % 4) + q.val, by omega⟩ 1
      (fun κ => Blocks.iblk_x m c ⟨t.val - 2, by omega⟩ p κ ⟨1024 * (t.val / 16) + p.val, by omega⟩ (kpos 1 κ) (hr 2 (by omega)) (by show 1024 * (1 : Fin 4).val + κ.val = 1024 * ((t.val - 2) % 4) + κ.val; have : (1 : Fin 4).val = 1 := rfl; omega))
      (fun κ => Blocks.iblk_w m c ⟨t.val - 2, by omega⟩ q κ ⟨1024 * (t.val / 4 % 4) + q.val, by omega⟩ (kpos 1 κ) (ho 2 (by omega)) (by show 1024 * (1 : Fin 4).val + κ.val = 1024 * ((t.val - 2) % 4) + κ.val; have : (1 : Fin 4).val = 1 := rfl; omega)),
    partial_eq (iblk m c 0 ⟨t.val - 1, by omega⟩) (iblk m c 1 ⟨t.val - 1, by omega⟩) (V m c main_v19) (V m c main_v9) p q ⟨1024 * (t.val / 16) + p.val, by omega⟩ ⟨1024 * (t.val / 4 % 4) + q.val, by omega⟩ 2
      (fun κ => Blocks.iblk_x m c ⟨t.val - 1, by omega⟩ p κ ⟨1024 * (t.val / 16) + p.val, by omega⟩ (kpos 2 κ) (hr 1 (by omega)) (by show 1024 * (2 : Fin 4).val + κ.val = 1024 * ((t.val - 1) % 4) + κ.val; have : (2 : Fin 4).val = 2 := rfl; omega))
      (fun κ => Blocks.iblk_w m c ⟨t.val - 1, by omega⟩ q κ ⟨1024 * (t.val / 4 % 4) + q.val, by omega⟩ (kpos 2 κ) (ho 1 (by omega)) (by show 1024 * (2 : Fin 4).val + κ.val = 1024 * ((t.val - 1) % 4) + κ.val; have : (2 : Fin 4).val = 2 := rfl; omega)),
    partial_eq (iblk m c 0 t) (iblk m c 1 t) (V m c main_v19) (V m c main_v9) p q ⟨1024 * (t.val / 16) + p.val, by omega⟩ ⟨1024 * (t.val / 4 % 4) + q.val, by omega⟩ 3
      (fun κ => Blocks.iblk_x m c t p κ ⟨1024 * (t.val / 16) + p.val, by omega⟩ (kpos 3 κ) rfl (by show 1024 * (3 : Fin 4).val + κ.val = 1024 * (t.val % 4) + κ.val; have : (3 : Fin 4).val = 3 := rfl; omega))
      (fun κ => Blocks.iblk_w m c t q κ ⟨1024 * (t.val / 4 % 4) + q.val, by omega⟩ (kpos 3 κ) rfl (by show 1024 * (3 : Fin 4).val + κ.val = 1024 * (t.val % 4) + κ.val; have : (3 : Fin 4).val = 3 := rfl; omega)),
    Blocks.iblk_b m c t q ⟨1024 * (t.val / 4 % 4) + q.val, by omega⟩ rfl]
  show _ = G2 _ _ _ (((cfg0.win 3).blk t).view.emb (ix2 p q))
  rw [Blocks.emb_o t p q ⟨1024 * (t.val / 16) + p.val, by omega⟩ ⟨1024 * (t.val / 4 % 4) + q.val, by omega⟩ rfl rfl, G2_apply]
  unfold entry
  rw [sum_4096]

/-- An index of the array is in point `t`'s output block iff each coordinate is in the block's range on its axis. -/
theorem mem_blk (t : Fin cfg0.N) (i : S16384x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v21).slice (win0_3.rect t)).set ↔ _
  rw [View.set_slice_whole, Rect.mem_set_unit]
  exact Iff.rfl

/-- Entry (r, o) lies in the output block of the last point of the group (r / 1024, o / 1024). -/
theorem cover_at (i : S16384x4096.Idx) (T : ℕ) (hT : T < cfg0.N)
    (hdef : T = ((i 0).val / 1024 * 4 + (i 1).val / 1024) * 4 + 3) : i ∈ ((cfg0.win 3).blk ⟨T, hT⟩).view.set := by
  have h0 : (i 0).val < 16384 := (i 0).isLt
  have h1 : (i 1).val < 4096 := (i 1).isLt
  rw [mem_blk]
  obtain ⟨-, -, -, -, -, -, e0, e1⟩ := Blocks.idx_facts ⟨T, hT⟩
  have e0' : win0_3.index ⟨T, hT⟩ (0 : Fin 2) = T / 16 := e0
  have e1' : win0_3.index ⟨T, hT⟩ (1 : Fin 2) = T / 4 % 4 := e1
  intro a
  match a with
  | ⟨0, _⟩ =>
    show win0_3.index ⟨T, hT⟩ (0 : Fin 2) * 1024 ≤ (i 0).val ∧ (i 0).val < win0_3.index ⟨T, hT⟩ (0 : Fin 2) * 1024 + 1024
    rw [e0']; omega
  | ⟨1, _⟩ =>
    show win0_3.index ⟨T, hT⟩ (1 : Fin 2) * 1024 ≤ (i 1).val ∧ (i 1).val < win0_3.index ⟨T, hT⟩ (1 : Fin 2) * 1024 + 1024
    rw [e1']; omega

/-- THE RESULT ARRAY after the run: the sixty-four written-back blocks tile it. -/
theorem final (c : Dev nD) :
    (dats m 0 c).arrAt 3 cfg0.N = G2 (V m c main_v19) (V m c main_v9) (V m c main_v20) :=
  (dats m 0 c).arrAt_eq_of_cover 3 _ (flushed_eq m c) fun i => by
    have hN : cfg0.N = 256 := N_0
    have h0 : (i 0).val < 16384 := (i 0).isLt
    have h1 : (i 1).val < 4096 := (i 1).isLt
    have hT : ((i 0).val / 1024 * 4 + (i 1).val / 1024) * 4 + 3 < cfg0.N := by omega
    exact ⟨⟨_, hT⟩, (flush0_3 _).mpr (by show (((i 0).val / 1024 * 4 + (i 1).val / 1024) * 4 + 3) % 4 = 3; omega),
      cover_at i _ hT rfl⟩

/-- The host's last line reshapes the [16384, 4096] array to [8, 2048, 4096]. -/
theorem tail_eq (c : Dev nD) :
    Pipeline.afterTail₀ cfgs (dats m) 0 (V0 m) [hostOps1] c main_v22
      = shapeCast S8x2048x4096 (G2 (V m c main_v19) (V m c main_v9) (V m c main_v20)) shapeCasts_S16384x4096_S8x2048x4096 := by
  unfold Pipeline.afterTail₀
  show StableHlo.after hostOps1 _ (Proc.devRef .tc main_v22) = _
  after_results
  have e : Pipeline.withArrays (cfgs 0).spec c (V0 m c) (fun w => (dats m 0 c).arrAt w (cfgs 0).N) (Proc.devRef .tc main_v21)
      = G2 (V m c main_v19) (V m c main_v9) (V m c main_v20) :=
    (Pipeline.withArrays_arr spec0 launch0.win.arr_inj c _ _ 3).trans (final m c)
  rw [e]
  rfl

/-- THE RUN, READ: every weakly fair execution ends with the result at the reshaped product-plus-bias of the arrays
    the region found, and the three arguments unchanged. -/
theorem run : θ_run defs (onTc (τ := τ) (main (F := Ideal))) ⟨m, fun _ => 0, ρ⟩ fun r => ∀ c : Dev nD,
      r.2.mem ((c.tc : Thread nD τ).loc main_v22)
        = shapeCast S8x2048x4096 (G2 (V m c main_v19) (V m c main_v9) (V m c main_v20)) shapeCasts_S16384x4096_S8x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v22 (Pipeline.mem_restRefs_of main_v22 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.Spec.lean ====
/-
  The common value of the two programs: a linear layer over extended reals.

  For an input `x` of shape [8, 2048, 4096], a (quantized) weight `w` of shape [4096, 4096] indexed (output feature,
  input feature) and a (quantized) bias `b` of shape [4096], the result at (batch, position, output feature) is the
  dot product of the input's feature vector there with the weight's row, plus the bias entry.
-/
import Idealize.ShloMosaic.Lib.ValueIdx
import Idealize.ShloMosaic.PureOps.Ideal

noncomputable section

namespace Cert.Spec

open Idealize.ShloMosaic Idealize.ShloMosaic.ValueIdx

/-- The linear layer at (i, j, o). -/
def at3 (x : (⟨3, ![8, 2048, 4096]⟩ : Shape).Idx → EReal) (w : (⟨2, ![4096, 4096]⟩ : Shape).Idx → EReal)
    (b : (⟨1, ![4096]⟩ : Shape).Idx → EReal) (i : Fin 8) (j : Fin 2048) (o : Fin 4096) : EReal :=
  (∑ k : Fin 4096, x (ix3 i j k) * w (ix2 o k)) + b (ix1 o)

/-- The linear layer as an array of shape [8, 2048, 4096]. -/
def linear (x : (⟨3, ![8, 2048, 4096]⟩ : Shape).Idx → EReal) (w : (⟨2, ![4096, 4096]⟩ : Shape).Idx → EReal)
    (b : (⟨1, ![4096]⟩ : Shape).Idx → EReal) : (⟨3, ![8, 2048, 4096]⟩ : Shape).Idx → EReal :=
  fun y => at3 x w b ⟨(y 0).val, (y 0).isLt⟩ ⟨(y 1).val, (y 1).isLt⟩ ⟨(y 2).val, (y 2).isLt⟩

theorem linear_apply (x : (⟨3, ![8, 2048, 4096]⟩ : Shape).Idx → EReal) (w : (⟨2, ![4096, 4096]⟩ : Shape).Idx → EReal)
    (b : (⟨1, ![4096]⟩ : Shape).Idx → EReal) (i : Fin 8) (j : Fin 2048) (o : Fin 4096) :
    linear x w b (ix3 i j o) = at3 x w b i j o := rfl

end Cert.Spec

end
-- ==== Proof.Bridge.lean ====
/-
  The kernel's result is the linear layer of the input with the quantized weight and the quantized bias.

  The result array is the [16384, 4096] product-plus-bias reshaped to [8, 2048, 4096]; the product's first operand is
  the input reshaped the other way, so entry (i, j, o) reads row 2048·i + j, which is the input's feature vector at
  (i, j); the second operand is the quantized weight (narrowing its format changes nothing over the extended
  reals); the bias row's entry `o` is the quantized bias's entry `o`.
-/
import proofs.«123997_j51900384805156_2_alg».proof.Proof.Result
import proofs.«123997_j51900384805156_2_alg».proof.Proof.Spec

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Result

variable (m : (ℓ : Loc nD τ sig) → Buf (Elt Ideal) ℓ)

theorem result_eq (c : Dev nD) :
    shapeCast S8x2048x4096 (G2 (V m c main_v19) (V m c main_v9) (V m c main_v20)) shapeCasts_S16384x4096_S8x2048x4096
      = Cert.Spec.linear (m ((c.tc : Thread nD τ).loc main_arg0))
          (Cert.Quant.quant (F := Ideal) S4096x4096 bcast_S_S4096x4096 (m ((c.tc : Thread nD τ).loc main_arg1)))
          (Cert.Quant.quant (F := Ideal) S4096 bcast_S_S4096 (m ((c.tc : Thread nD τ).loc main_arg2))) := by
  funext y
  obtain ⟨i, j, o, rfl⟩ : ∃ (i : Fin 8) (j : Fin 2048) (o : Fin 4096), y = ix3 i j o := ⟨y 0, y 1, y 2, eq_ix3 y⟩
  have hi := i.isLt
  have hj := j.isLt
  have ho := o.isLt
  rw [Cert.Spec.linear_apply]
  refine (shapeCast_apply _ shapeCasts_S16384x4096_S8x2048x4096 (ix3 i j o) (ix2 (⟨2048 * i.val + j.val, by omega⟩ : Fin 16384) o) (by
    rw [Shape.rowMajor_val_two, Shape.rowMajor_val_three]
    show (2048 * i.val + j.val) * 4096 + o.val = (i.val * 2048 + j.val) * 4096 + o.val
    omega)).trans ?_
  rw [G2_apply]
  unfold entry Cert.Spec.at3
  rw [Blocks.V_x, Blocks.V_w, Blocks.V_b]
  refine congrArg₂ (· + ·) (Finset.sum_congr rfl fun k _ => ?_) ?_
  · have hk := k.isLt
    refine congrArg₂ (· * ·) ?_ rfl
    exact shapeCast_apply _ shapeCasts_S8x2048x4096_S16384x4096 (ix2 (⟨2048 * i.val + j.val, by omega⟩ : Fin 16384) k) (ix3 i j k) (by
      rw [Shape.rowMajor_val_two, Shape.rowMajor_val_three]
      show (i.val * 2048 + j.val) * 4096 + k.val = (2048 * i.val + j.val) * 4096 + k.val
      omega)
  · exact shapeCast_apply _ shapeCasts_S4096_S1x4096 (ix2 (0 : Fin 1) o) (ix1 o) (by
      rw [Shape.rowMajor_val_two, Shape.rowMajor_val_one]
      show o.val = 0 * 4096 + o.val
      omega)

end Cert.KernelIdeal.Bridge

end
-- ==== Proof.RefValue.lean ====
/-
  The reference's result, over the extended reals, is the linear layer of the input with the quantized weight and the
  quantized bias: its dot product contracts the input's last axis with the weight's second axis, entry by entry, and
  the bias is broadcast over batch and position.
-/
import proofs.«123997_j51900384805156_2_alg».proof.Proof.Gen.ReferenceIdeal.Read
import proofs.«123997_j51900384805156_2_alg».proof.Proof.Quant
import proofs.«123997_j51900384805156_2_alg».proof.Proof.Spec

noncomputable section

namespace Cert.ReferenceIdeal.RefValue

open Idealize.ShloMosaic Idealize.ShloMosaic.ValueIdx
open Cert.ReferenceIdeal Cert.ReferenceIdeal.Gen Cert.ReferenceIdeal.Read

variable {F : FTy → Type} [FloatOps F]

/-- The reference's quantized weight is the shared quantizer of the weight. -/
theorem qw_eq (x1 : (⟨S4096x4096, .f32⟩ : BufTy).Contents (Elt F)) :
    val_main_v8 (F := F) x1 = Cert.Quant.quant S4096x4096 bcast_S_S4096x4096 x1 := rfl

/-- The reference's quantized bias is the shared quantizer of the bias. -/
theorem qb_eq (x2 : (⟨S4096, .f32⟩ : BufTy).Contents (Elt F)) :
    val_main_v17 (F := F) x2 = Cert.Quant.quant S4096 bcast_S_S4096 x2 := rfl

/-- The reference's result is the linear layer. -/
theorem result_eq (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) :
    val_main_v21 (F := Ideal) x0 x1 x2
      = Cert.Spec.linear x0 (Cert.Quant.quant (F := Ideal) S4096x4096 bcast_S_S4096x4096 x1)
          (Cert.Quant.quant (F := Ideal) S4096 bcast_S_S4096 x2) := by
  funext y
  obtain ⟨i, j, o, rfl⟩ : ∃ (i : Fin 8) (j : Fin 2048) (o : Fin 4096), y = ix3 i j o := ⟨y 0, y 1, y 2, eq_ix3 y⟩
  rw [Cert.Spec.linear_apply]
  unfold Cert.Spec.at3
  have el : ∀ k : Fin 4096, lidx_main_v18 (ix3 i j o) k = ix3 i j k := fun k => funext fun a => Fin.ext (by
    match a with
    | ⟨0, _⟩ => rfl
    | ⟨1, _⟩ => rfl
    | ⟨2, _⟩ => rfl)
  have er : ∀ k : Fin 4096, ridx_main_v18 (ix3 i j o) k = ix2 o k := fun k => funext fun a => Fin.ext (by
    match a with
    | ⟨0, _⟩ => rfl
    | ⟨1, _⟩ => rfl)
  have eb : idx_main_v19 (idx_main_v20 (ix3 i j o)) = ix1 o := funext fun a => Fin.ext (by
    match a with
    | ⟨0, _⟩ => rfl)
  rw [val_main_v21_apply, val_main_v18_apply, val_main_v20_apply, val_main_v19_apply, eb, qw_eq, qb_eq]
  simp only [el, er]
  rfl

end Cert.ReferenceIdeal.RefValue

end
-- ==== Proof.lean ====
/-
  A bit-plane linear layer: `y = x · q(W)ᵀ + q(b)`, where `q` clips to [-1, 1], rounds the magnitude to 255 levels and
  restores the sign.

  Both programs quantize the weight and the bias on the host with the same chain of operations (Proof/Quant.lean), so
  the quantizer is carried as one function and never opened. The reference then contracts the input's feature axis
  with the quantized weight's second axis in one dot product and adds the bias (Proof/RefValue.lean). The kernel views
  the input as a [16384, 4096] matrix and computes each 1024 × 1024 output block in four grid points: an accumulator is
  reset to zero at the first and takes the partial product of the current 1024 contraction positions at each; at the
  fourth point accumulator + bias row is written to the output block (Proof/Cases.lean: each case as a value;
  Proof/Fold.lean: the four points of a block; Proof/Payload.lean: the stored values at an index; Proof/Blocks.lean:
  where each block sits and what the arrays hold at the region's entry; Proof/Result.lean: the result array, block by
  block, and the final reshape). Over the extended reals the narrowing of the operands' float format is the identity,
  and the four partial sums added in order into zero are the whole sum, because addition there is commutative and
  associative (Proof/BlockSum.lean) — no finiteness of the inputs is used. So both results are the same linear layer
  (Proof/Spec.lean, Proof/Bridge.lean), entry by entry.

  The idealization pass rewrote nothing, so the kernel's idealization claim is trivial; the two kernels' frames are
  the generated frame certificates, and the reference's frame is its generated run with the result dropped.
-/
import proofs.«123997_j51900384805156_2_alg».proof.Defs
import proofs.«123997_j51900384805156_2_alg».proof.Proof.Gen.Kernel
import proofs.«123997_j51900384805156_2_alg».proof.Proof.Gen.Kernel.Skeleton
import proofs.«123997_j51900384805156_2_alg».proof.Proof.Gen.Kernel.Launch
import proofs.«123997_j51900384805156_2_alg».proof.Proof.Gen.Kernel.Points
import proofs.«123997_j51900384805156_2_alg».proof.Proof.Gen.Kernel.Frame
import proofs.«123997_j51900384805156_2_alg».proof.Proof.Gen.KernelIdeal
import proofs.«123997_j51900384805156_2_alg».proof.Proof.Gen.KernelIdeal.Skeleton
import proofs.«123997_j51900384805156_2_alg».proof.Proof.Gen.KernelIdeal.Launch
import proofs.«123997_j51900384805156_2_alg».proof.Proof.Gen.KernelIdeal.Points
import proofs.«123997_j51900384805156_2_alg».proof.Proof.Gen.KernelIdeal.Frame
import proofs.«123997_j51900384805156_2_alg».proof.Proof.Gen.ReferenceIdeal
import proofs.«123997_j51900384805156_2_alg».proof.Proof.Gen.Pre_finite_inputs
import proofs.«123997_j51900384805156_2_alg».proof.Proof.Gen.ReferenceIdeal.Run
import proofs.«123997_j51900384805156_2_alg».proof.Proof.Gen.ReferenceIdeal.Read
import proofs.«123997_j51900384805156_2_alg».proof.Proof.Bridge
import proofs.«123997_j51900384805156_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals both programs end with the linear layer of the input with the quantized weight and the
    quantized bias, of arguments that agree. -/
theorem algebraic : Cert.algebraic_KernelIdeal_ReferenceIdeal := by
  intro m ρ m' ρ' _ hagree
  refine ⟨fun c => Cert.Spec.linear (m ((c.tc : Thread Cert.KernelIdeal.nD Cert.KernelIdeal.τ).loc Cert.KernelIdeal.main_arg0))
      (Cert.Quant.quant (F := Ideal) Cert.KernelIdeal.S4096x4096 Cert.KernelIdeal.Facts₀.bcast_S_S4096x4096 (m ((c.tc : Thread Cert.KernelIdeal.nD Cert.KernelIdeal.τ).loc Cert.KernelIdeal.main_arg1)))
      (Cert.Quant.quant (F := Ideal) Cert.KernelIdeal.S4096 Cert.KernelIdeal.Facts₀.bcast_S_S4096 (m ((c.tc : Thread Cert.KernelIdeal.nD Cert.KernelIdeal.τ).loc Cert.KernelIdeal.main_arg2))), ?_, ?_⟩
  · exact (θ_run Cert.KernelIdeal.defs _ _).mono
      (fun _ h c => ⟨(h c).1.trans (Cert.KernelIdeal.Bridge.result_eq m c), (h c).2⟩) (Cert.KernelIdeal.Result.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, Cert.ReferenceIdeal.RefValue.result_eq, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
